-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x192x128 : Shape := ⟨3, ![16, 192, 128]⟩
abbrev S2x1 : Shape := ⟨2, ![2, 1]⟩
abbrev S2 : Shape := ⟨1, ![2]⟩
abbrev S_ : Shape := ⟨0, ![]⟩

class Facts : Prop where
  bcast_S_S16x192x128 : S_.BroadcastsInDim S16x192x128 (![] : Fin 0 → Fin S16x192x128.rank)
  reducesTo_S16x192x128_S_d0_1_2 : S16x192x128.ReducesTo [0, 1, 2] S_
  h_S_ : 0 < S_.numel
  bcast_S_S2x1 : S_.BroadcastsInDim S2x1 (![] : Fin 0 → Fin S2x1.rank)
  reducesTo_S2x1_S_d0_1 : S2x1.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S16x192x128 .f32) (main_arg1 : FVec F S2x1 .f32) (main_arg2 : FVec F S2 .f32) : IVec S_ 1 :=
  let main_v0 : FVec F S16x192x128 .f32 := Host.absf main_arg0
  let main_cst : FVec F S_ .f32 := constant S_ .f32 0x7F800000#32
  let main_v1 : FVec F S16x192x128 .f32 := broadcastInDim S16x192x128 ![] bcast_S_S16x192x128 main_cst
  let main_v2 : IVec S16x192x128 1 := cmpf .olt main_v0 main_v1
  let main_c : IVec S_ 1 := constantI S_ 1 1#1
  let main_v3 : IVec S_ 1 := (fun x v => Host.reduce IntOp.andi x v reducesTo_S16x192x128_S_d0_1_2 h_S_) main_v2 main_c
  let main_v4 : FVec F S2x1 .f32 := Host.absf main_arg1
  let main_cst_0 : FVec F S_ .f32 := constant S_ .f32 0x7F800000#32
  let main_v5 : FVec F S2x1 .f32 := broadcastInDim S2x1 ![] bcast_S_S2x1 main_cst_0
  let main_v6 : IVec S2x1 1 := cmpf .olt main_v4 main_v5
  let main_c_1 : IVec S_ 1 := constantI S_ 1 1#1
  let main_v7 : IVec S_ 1 := (fun x v => Host.reduce IntOp.andi x v reducesTo_S2x1_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S16x192x128 : Shape := ⟨3, ![16, 192, 128]⟩
abbrev S2x1 : Shape := ⟨2, ![2, 1]⟩
abbrev S2 : Shape := ⟨1, ![2]⟩
abbrev S1x1 : Shape := ⟨2, ![1, 1]⟩
abbrev S_ : Shape := ⟨0, ![]⟩
abbrev S1 : Shape := ⟨1, ![1]⟩
abbrev S16x166x128 : Shape := ⟨3, ![16, 166, 128]⟩
abbrev S16x26x128 : Shape := ⟨3, ![16, 26, 128]⟩
abbrev S16x166x192x128 : Shape := ⟨4, ![16, 166, 192, 128]⟩
abbrev S1x166x128 : Shape := ⟨3, ![1, 166, 128]⟩
abbrev S1x64x128 : Shape := ⟨3, ![1, 64, 128]⟩
abbrev S1x166x64x128 : Shape := ⟨4, ![1, 166, 64, 128]⟩
abbrev S166x128 : Shape := ⟨2, ![166, 128]⟩
abbrev S64x128 : Shape := ⟨2, ![64, 128]⟩
abbrev S166x1x128 : Shape := ⟨3, ![166, 1, 128]⟩
abbrev S166x64x128 : Shape := ⟨3, ![166, 64, 128]⟩
abbrev S16x31872x128 : Shape := ⟨3, ![16, 31872, 128]⟩
abbrev S16x31898x128 : Shape := ⟨3, ![16, 31898, 128]⟩

abbrev nBuf : Space → Nat
  | .hbm => 32
  | .vmem => 8
  | .smem => 0
  | _ => 0

abbrev bufTy : (tb : Table) → Fin (tcTables nBuf tb) → BufTy
  | .hbm, ⟨0, _⟩ => ⟨S16x192x128, .f32⟩
  | .hbm, ⟨1, _⟩ => ⟨S2x1, .f32⟩
  | .hbm, ⟨2, _⟩ => ⟨S2, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S16x192x128, .f32⟩
  | .hbm, ⟨13, _⟩ => ⟨S16x192x128, .f32⟩
  | .hbm, ⟨14, _⟩ => ⟨S_, .f32⟩
  | .hbm, ⟨15, _⟩ => ⟨S16x192x128, .f32⟩
  | .hbm, ⟨16, _⟩ => ⟨S16x192x128, .f32⟩
  | .hbm, ⟨17, _⟩ => ⟨S16x192x128, .f32⟩
  | .hbm, ⟨18, _⟩ => ⟨S16x192x128, .f32⟩
  | .hbm, ⟨19, _⟩ => ⟨S_, .f32⟩
  | .hbm, ⟨20, _⟩ => ⟨S16x192x128, .f32⟩
  | .hbm, ⟨21, _⟩ => ⟨S16x192x128, .f32⟩
  | .hbm, ⟨22, _⟩ => ⟨S_, .f32⟩
  | .hbm, ⟨23, _⟩ => ⟨S16x192x128, .f32⟩
  | .hbm, ⟨24, _⟩ => ⟨S16x192x128, .f32⟩
  | .hbm, ⟨25, _⟩ => ⟨S16x166x128, .f32⟩
  | .hbm, ⟨26, _⟩ => ⟨S16x166x128, .f32⟩
  | .hbm, ⟨27, _⟩ => ⟨S16x166x128, .f32⟩
  | .hbm, ⟨28, _⟩ => ⟨S16x26x128, .f32⟩
  | .hbm, ⟨29, _⟩ => ⟨S16x166x192x128, .f32⟩
  | .hbm, ⟨30, _⟩ => ⟨S16x31872x128, .f32⟩
  | .hbm, ⟨31, _⟩ => ⟨S16x31898x128, .f32⟩
  | .local _ .vmem, ⟨0, _⟩ => ⟨S1x166x128, .f32⟩
  | .local _ .vmem, ⟨1, _⟩ => ⟨S1x166x128, .f32⟩
  | .local _ .vmem, ⟨2, _⟩ => ⟨S1x166x128, .f32⟩
  | .local _ .vmem, ⟨3, _⟩ => ⟨S1x166x128, .f32⟩
  | .local _ .vmem, ⟨4, _⟩ => ⟨S1x64x128, .f32⟩
  | .local _ .vmem, ⟨5, _⟩ => ⟨S1x64x128, .f32⟩
  | .local _ .vmem, ⟨6, _⟩ => ⟨S1x166x64x128, .f32⟩
  | .local _ .vmem, ⟨7, _⟩ => ⟨S1x166x64x128, .f32⟩
  | _, _ => ⟨S16x192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x166x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x166x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x166x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S2x1_S1x1_0_0 : S2x1.Slices ![0, 0] S1x1
  shapeCasts_S1x1_S_ : S1x1.ShapeCasts S_
  slices_S2x1_S1x1_1_0 : S2x1.Slices ![1, 0] S1x1
  slices_S2_S1_0 : S2.Slices ![0] S1
  shapeCasts_S1_S_ : S1.ShapeCasts S_
  slices_S2_S1_1 : S2.Slices ![1] S1
  bcast_S_S16x192x128 : S_.BroadcastsInDim S16x192x128 (![] : Fin 0 → Fin S16x192x128.rank)
  slices_S16x192x128_S16x166x128_0_1_0 : S16x192x128.Slices ![0, 1, 0] S16x166x128
  slices_S16x192x128_S16x166x128_0_26_0 : S16x192x128.Slices ![0, 26, 0] S16x166x128
  slices_S16x192x128_S16x26x128_0_0_0 : S16x192x128.Slices ![0, 0, 0] S16x26x128
  inb_S1x166x128_S1x166x128_0_0_0 : ∀ a, (![0, 0, 0] : Fin 3 → Nat) a + S1x166x128.size a ≤ S1x166x128.size a
  h_S1x166x128 : 0 < S1x166x128.numel
  shapeCasts_S1x166x128_S166x128 : S1x166x128.ShapeCasts S166x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S166x128_S166x1x128 : S166x128.ShapeCasts S166x1x128
  shapeCasts_S64x128_S1x64x128 : S64x128.ShapeCasts S1x64x128
  broadcasts_S166x1x128_S166x64x128 : S166x1x128.Broadcasts S166x64x128
  broadcasts_S1x64x128_S166x64x128 : S1x64x128.Broadcasts S166x64x128
  inb_S1x166x64x128_S1x166x64x128_0_0_0_0 : ∀ a, (![0, 0, 0, 0] : Fin 4 → Nat) a + S1x166x64x128.size a ≤ S1x166x64x128.size a
  h_S1x166x64x128 : 0 < S1x166x64x128.numel
  shapeCasts_S1x166x64x128_S166x64x128 : S1x166x64x128.ShapeCasts S166x64x128
  shapeCasts_S166x64x128_S1x166x64x128 : S166x64x128.ShapeCasts S1x166x64x128
  shapeCasts_S16x166x192x128_S16x31872x128 : S16x166x192x128.ShapeCasts S16x31872x128
  concatenates_S16x26x128_S16x31872x128_S16x31898x128_d1 : Shape.Concatenates [S16x26x128, S16x31872x128] S16x31898x128 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x166x128.size a ≤ S16x166x128.size a
  hwx0_0 : ∀ i : grid0.Coords, EltTy.bits .f32 = 32 ∨ (Rect.block (s := S16x166x128) S1x166x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x166x128.size a ≤ S16x166x128.size a
  hwx0_1 : ∀ i : grid0.Coords, EltTy.bits .f32 = 32 ∨ (Rect.block (s := S16x166x128) S1x166x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S16x192x128.size a
  hwx0_2 : ∀ i : grid0.Coords, EltTy.bits .f32 = 32 ∨ (Rect.block (s := S16x192x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x166x64x128.size a ≤ S16x166x192x128.size a
  hwx0_3 : ∀ i : grid0.Coords, EltTy.bits .f32 = 32 ∨ (Rect.block (s := S16x166x192x128) S1x166x64x128.size (cc0_transform_3 i) (hinb0_3 i)).WholeWords (EltTy.packing .f32)

variable [Facts₀]

abbrev win0_0 : Pipeline.Window sig grid0 :=
  Pipeline.Window.ofSpec (Memref.whole main_v20) S1x166x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x166x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x166x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x192x128 : Shape := ⟨3, ![16, 192, 128]⟩
abbrev S2x1 : Shape := ⟨2, ![2, 1]⟩
abbrev S2 : Shape := ⟨1, ![2]⟩
abbrev S16x192x128x1 : Shape := ⟨4, ![16, 192, 128, 1]⟩
abbrev S1x1x1x2 : Shape := ⟨4, ![1, 1, 1, 2]⟩
abbrev S16x192x128x2 : Shape := ⟨4, ![16, 192, 128, 2]⟩
abbrev S_ : Shape := ⟨0, ![]⟩
abbrev S166 : Shape := ⟨1, ![166]⟩
abbrev S166x1 : Shape := ⟨2, ![166, 1]⟩
abbrev S16x166x128 : Shape := ⟨3, ![16, 166, 128]⟩
abbrev S16x166x1x128 : Shape := ⟨4, ![16, 166, 1, 128]⟩
abbrev S16x1x192x128 : Shape := ⟨4, ![16, 1, 192, 128]⟩
abbrev S16x166x192x128 : Shape := ⟨4, ![16, 166, 192, 128]⟩
abbrev S16x31872x128 : Shape := ⟨3, ![16, 31872, 128]⟩
abbrev S16x26x128 : Shape := ⟨3, ![16, 26, 128]⟩
abbrev S16x31898x128 : Shape := ⟨3, ![16, 31898, 128]⟩

abbrev nBuf : Space → Nat
  | .hbm => 69
  | .vmem => 0
  | .smem => 0
  | _ => 0

abbrev bufTy : (tb : Table) → Fin (tcTables nBuf tb) → BufTy
  | .hbm, ⟨0, _⟩ => ⟨S16x192x128, .f32⟩
  | .hbm, ⟨1, _⟩ => ⟨S2x1, .f32⟩
  | .hbm, ⟨2, _⟩ => ⟨S2, .f32⟩
  | .hbm, ⟨3, _⟩ => ⟨S16x192x128x1, .f32⟩
  | .hbm, ⟨4, _⟩ => ⟨S2, .f32⟩
  | .hbm, ⟨5, _⟩ => ⟨S1x1x1x2, .f32⟩
  | .hbm, ⟨6, _⟩ => ⟨S16x192x128x2, .f32⟩
  | .hbm, ⟨7, _⟩ => ⟨S16x192x128x2, .f32⟩
  | .hbm, ⟨8, _⟩ => ⟨S16x192x128x2, .f32⟩
  | .hbm, ⟨9, _⟩ => ⟨S1x1x1x2, .f32⟩
  | .hbm, ⟨10, _⟩ => ⟨S16x192x128x2, .f32⟩
  | .hbm, ⟨11, _⟩ => ⟨S16x192x128x2, .f32⟩
  | .hbm, ⟨12, _⟩ => ⟨S_, .f32⟩
  | .hbm, ⟨13, _⟩ => ⟨S16x192x128, .f32⟩
  | .hbm, ⟨14, _⟩ => ⟨S_, .f32⟩
  | .hbm, ⟨15, _⟩ => ⟨S16x192x128, .f32⟩
  | .hbm, ⟨16, _⟩ => ⟨S16x192x128, .f32⟩
  | .hbm, ⟨17, _⟩ => ⟨S16x192x128x1, .f32⟩
  | .hbm, ⟨18, _⟩ => ⟨S16x192x128x2, .f32⟩
  | .hbm, ⟨19, _⟩ => ⟨S16x192x128x2, .f32⟩
  | .hbm, ⟨20, _⟩ => ⟨S16x192x128x2, .f32⟩
  | .hbm, ⟨21, _⟩ => ⟨S_, .f32⟩
  | .hbm, ⟨22, _⟩ => ⟨S16x192x128, .f32⟩
  | .hbm, ⟨23, _⟩ => ⟨S16x192x128x1, .f32⟩
  | .hbm, ⟨24, _⟩ => ⟨S16x192x128x2, .f32⟩
  | .hbm, ⟨25, _⟩ => ⟨S16x192x128x2, .f32⟩
  | .hbm, ⟨26, _⟩ => ⟨S166, .i32⟩
  | .hbm, ⟨27, _⟩ => ⟨S_, .i32⟩
  | .hbm, ⟨28, _⟩ => ⟨S166, .i32⟩
  | .hbm, ⟨29, _⟩ => ⟨S166, .i32⟩
  | .hbm, ⟨30, _⟩ => ⟨S_, .i32⟩
  | .hbm, ⟨31, _⟩ => ⟨S166, .i32⟩
  | .hbm, ⟨32, _⟩ => ⟨S166, .i1⟩
  | .hbm, ⟨33, _⟩ => ⟨S_, .i32⟩
  | .hbm, ⟨34, _⟩ => ⟨S166, .i32⟩
  | .hbm, ⟨35, _⟩ => ⟨S166, .i32⟩
  | .hbm, ⟨36, _⟩ => ⟨S166, .i32⟩
  | .hbm, ⟨37, _⟩ => ⟨S166x1, .i32⟩
  | .hbm, ⟨38, _⟩ => ⟨S16x166x128, .f32⟩
  | .hbm, ⟨39, _⟩ => ⟨S_, .i32⟩
  | .hbm, ⟨40, _⟩ => ⟨S166, .i32⟩
  | .hbm, ⟨41, _⟩ => ⟨S166, .i32⟩
  | .hbm, ⟨42, _⟩ => ⟨S_, .i32⟩
  | .hbm, ⟨43, _⟩ => ⟨S166, .i32⟩
  | .hbm, ⟨44, _⟩ => ⟨S166, .i1⟩
  | .hbm, ⟨45, _⟩ => ⟨S_, .i32⟩
  | .hbm, ⟨46, _⟩ => ⟨S166, .i32⟩
  | .hbm, ⟨47, _⟩ => ⟨S166, .i32⟩
  | .hbm, ⟨48, _⟩ => ⟨S166, .i32⟩
  | .hbm, ⟨49, _⟩ => ⟨S166x1, .i32⟩
  | .hbm, ⟨50, _⟩ => ⟨S16x166x128, .f32⟩
  | .hbm, ⟨51, _⟩ => ⟨S16x166x1x128, .f32⟩
  | .hbm, ⟨52, _⟩ => ⟨S16x192x128x1, .f32⟩
  | .hbm, ⟨53, _⟩ => ⟨S16x192x128, .f32⟩
  | .hbm, ⟨54, _⟩ => ⟨S16x1x192x128, .f32⟩
  | .hbm, ⟨55, _⟩ => ⟨S16x166x192x128, .f32⟩
  | .hbm, ⟨56, _⟩ => ⟨S16x166x192x128, .f32⟩
  | .hbm, ⟨57, _⟩ => ⟨S16x166x192x128, .f32⟩
  | .hbm, ⟨58, _⟩ => ⟨S16x166x1x128, .f32⟩
  | .hbm, ⟨59, _⟩ => ⟨S16x192x128x1, .f32⟩
  | .hbm, ⟨60, _⟩ => ⟨S16x192x128, .f32⟩
  | .hbm, ⟨61, _⟩ => ⟨S16x1x192x128, .f32⟩
  | .hbm, ⟨62, _⟩ => ⟨S16x166x192x128, .f32⟩
  | .hbm, ⟨63, _⟩ => ⟨S16x166x192x128, .f32⟩
  | .hbm, ⟨64, _⟩ => ⟨S16x166x192x128, .f32⟩
  | .hbm, ⟨65, _⟩ => ⟨S16x166x192x128, .f32⟩
  | .hbm, ⟨66, _⟩ => ⟨S16x31872x128, .f32⟩
  | .hbm, ⟨67, _⟩ => ⟨S16x26x128, .f32⟩
  | .hbm, ⟨68, _⟩ => ⟨S16x31898x128, .f32⟩
  | _, _ => ⟨S16x192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]

class Facts₀ : Prop where
  bcast_S16x192x128_S16x192x128x1_0_1_2 : S16x192x128.BroadcastsInDim S16x192x128x1 (![0, 1, 2] : Fin 3 → Fin S16x192x128x1.rank)
  shapeCasts_S2x1_S2 : S2x1.ShapeCasts S2
  bcast_S2_S1x1x1x2_3 : S2.BroadcastsInDim S1x1x1x2 (![3] : Fin 1 → Fin S1x1x1x2.rank)
  bcast_S16x192x128x1_S16x192x128x2_0_1_2_3 : S16x192x128x1.BroadcastsInDim S16x192x128x2 (![0, 1, 2, 3] : Fin 4 → Fin S16x192x128x2.rank)
  bcast_S1x1x1x2_S16x192x128x2_0_1_2_3 : S1x1x1x2.BroadcastsInDim S16x192x128x2 (![0, 1, 2, 3] : Fin 4 → Fin S16x192x128x2.rank)
  reducesTo_S16x192x128x2_S16x192x128_d3 : S16x192x128x2.ReducesTo [3] S16x192x128
  h_S_ : 0 < S_.numel
  bcast_S_S16x192x128 : S_.BroadcastsInDim S16x192x128 (![] : Fin 0 → Fin S16x192x128.rank)
  bcast_S_S166 : S_.BroadcastsInDim S166 (![] : Fin 0 → Fin S166.rank)
  bcast_S166_S166x1_0 : S166.BroadcastsInDim S166x1 (![0] : Fin 1 → Fin S166x1.rank)
  bcast_S16x166x128_S16x166x1x128_0_1_3 : S16x166x128.BroadcastsInDim S16x166x1x128 (![0, 1, 3] : Fin 3 → Fin S16x166x1x128.rank)
  slices_S16x192x128x2_S16x192x128x1_0_0_0_0 : S16x192x128x2.Slices ![0, 0, 0, 0] S16x192x128x1
  shapeCasts_S16x192x128x1_S16x192x128 : S16x192x128x1.ShapeCasts S16x192x128
  bcast_S16x192x128_S16x1x192x128_0_2_3 : S16x192x128.BroadcastsInDim S16x1x192x128 (![0, 2, 3] : Fin 3 → Fin S16x1x192x128.rank)
  bcast_S16x166x1x128_S16x166x192x128_0_1_2_3 : S16x166x1x128.BroadcastsInDim S16x166x192x128 (![0, 1, 2, 3] : Fin 4 → Fin S16x166x192x128.rank)
  bcast_S16x1x192x128_S16x166x192x128_0_1_2_3 : S16x1x192x128.BroadcastsInDim S16x166x192x128 (![0, 1, 2, 3] : Fin 4 → Fin S16x166x192x128.rank)
  slices_S16x192x128x2_S16x192x128x1_0_0_0_1 : S16x192x128x2.Slices ![0, 0, 0, 1] S16x192x128x1
  shapeCasts_S16x166x192x128_S16x31872x128 : S16x166x192x128.ShapeCasts S16x31872x128
  slices_S16x192x128_S16x26x128_0_0_0 : S16x192x128.Slices ![0, 0, 0] S16x26x128
  concatenates_S16x26x128_S16x31872x128_S16x31898x128_d1 : Shape.Concatenates [S16x26x128, S16x31872x128] S16x31898x128 1
  gather_S16x192x128_S166x1_S16x166x128_02_1_n_n_1_1_161128_wf : GatherDims.WF S16x192x128 S166x1 S16x166x128 [0, 2] [1] [] [1] [] 1 ![16, 1, 128]

variable [Facts₀]

def gather_S16x192x128_S166x1_S16x166x128_02_1_n_n_1_1_161128 : GatherDims S16x192x128 S166x1 S16x166x128 where
  offsetDims := [0, 2]
  collapsedSliceDims := [1]
  operandBatchingDims := []
  startIndicesBatchingDims := []
  startIndexMap := [1]
  indexVectorDim := 1
  sliceSizes := ![16, 1, 128]
  wf := gather_S16x192x128_S166x1_S16x166x128_02_1_n_n_1_1_161128_wf

class Facts : Prop extends Facts₀ where

variable [Facts]
-- ==== Proof.KerPayload.lean ====
/-
  The kernel body's one stored value, read at an index. The body loads a block xp of 166 rows (as [1,166,128]), a block d of
  the same shape and a block s of 64 rows (as [1,64,128]), drops the unit axes, lays xp and d out as [166,1,128] and s as
  [1,64,128], broadcasts all three to [166,64,128] and stores xp + d·s with the unit axis put back: at (0, i, l, e) the
  stored value is xp(0,i,e) + d(0,i,e)·s(0,l,e).
-/
import proofs.«108405_j87986700026365_1_alg».proof.Proof.Gen.KernelIdeal.Skeleton
import Idealize.ShloMosaic.Lib.Pipeline.Value
import Idealize.ShloMosaic.Lib.ValueIdx

noncomputable section

namespace Cert.KerBlend

open Cert.KernelIdeal Cert.KernelIdeal.Gen Idealize.ShloMosaic Idealize.ShloMosaic.ValueIdx

/-- A [1,166,128] block with its unit axis dropped, laid out as a [166,1,128] column of rows and broadcast along the middle
    axis: at (i, l, e) it is the block at (0, i, e). -/
theorem rows_bcast {α : Type} (v : S1x166x128.Idx → α) (h1 : S1x166x128.ShapeCasts S166x128) (h2 : S166x128.ShapeCasts S166x1x128)
    (h3 : S166x1x128.Broadcasts S166x64x128) (i : Fin 166) (l : Fin 64) (e : Fin 128) :
    broadcastTo S166x64x128 (shapeCast S166x1x128 (shapeCast S166x128 v h1) h2) h3 (ix3 i l e) = v (ix3 (0 : Fin 1) i e) := by
  refine (broadcastTo_apply _ h3 (ix3 i l e) (ix3 i (0 : Fin 1) e) (fun a => ?_)).trans ?_
  · match a with
    | ⟨0, _⟩ => show i.val = if (166 : Nat) = 1 then 0 else i.val; rw [if_neg (by decide)]
    | ⟨1, _⟩ => show 0 = if (1 : Nat) = 1 then 0 else l.val; rw [if_pos rfl]
    | ⟨2, _⟩ => show e.val = if (128 : Nat) = 1 then 0 else e.val; rw [if_neg (by decide)]
  refine (shapeCast_apply _ h2 (ix3 i (0 : Fin 1) e) (ix2 i e) ?_).trans ?_
  · rewrite [Shape.rowMajor_val_two, Shape.rowMajor_val_three]
    show i.val * 128 + e.val = (i.val * 1 + 0) * 128 + e.val
    omega
  refine shapeCast_apply _ h1 (ix2 i e) (ix3 (0 : Fin 1) i e) ?_
  rewrite [Shape.rowMajor_val_two, Shape.rowMajor_val_three]
  show (0 * 166 + i.val) * 128 + e.val = i.val * 128 + e.val
  omega

/-- A [1,64,128] block with its unit axis dropped and put back, broadcast along the leading axis: at (i, l, e) it is the
    block at (0, l, e). -/
theorem tile_bcast {α : Type} (v : S1x64x128.Idx → α) (h1 : S1x64x128.ShapeCasts S64x128) (h2 : S64x128.ShapeCasts S1x64x128)
    (h3 : S1x64x128.Broadcasts S166x64x128) (i : Fin 166) (l : Fin 64) (e : Fin 128) :
    broadcastTo S166x64x128 (shapeCast S1x64x128 (shapeCast S64x128 v h1) h2) h3 (ix3 i l e) = v (ix3 (0 : Fin 1) l e) := by
  refine (broadcastTo_apply _ h3 (ix3 i l e) (ix3 (0 : Fin 1) l e) (fun a => ?_)).trans ?_
  · match a with
    | ⟨0, _⟩ => show 0 = if (1 : Nat) = 1 then 0 else i.val; rw [if_pos rfl]
    | ⟨1, _⟩ => show l.val = if (64 : Nat) = 1 then 0 else l.val; rw [if_neg (by decide)]
    | ⟨2, _⟩ => show e.val = if (128 : Nat) = 1 then 0 else e.val; rw [if_neg (by decide)]
  refine (shapeCast_apply _ h2 (ix3 (0 : Fin 1) l e) (ix2 l e) ?_).trans ?_
  · rewrite [Shape.rowMajor_val_two, Shape.rowMajor_val_three]
    show l.val * 128 + e.val = (0 * 64 + l.val) * 128 + e.val
    omega
  refine shapeCast_apply _ h1 (ix2 l e) (ix3 (0 : Fin 1) l e) ?_
  rewrite [Shape.rowMajor_val_two, Shape.rowMajor_val_three]
  show (0 * 64 + l.val) * 128 + e.val = l.val * 128 + e.val
  omega

/-- THE STORED VALUE at (0, i, l, e): xp(0,i,e) + d(0,i,e) · s(0,l,e). -/
theorem pay_apply (v0 v2 : Vec Ideal S1x166x128 .f32) (v4 : Vec Ideal S1x64x128 .f32) (i : Fin 166) (l : Fin 64) (e : Fin 128) :
    k0_pay1 (F := Ideal) v0 v2 v4 (ix4 (0 : Fin 1) i l e)
      = v0 (ix3 (0 : Fin 1) i e) + v2 (ix3 (0 : Fin 1) i e) * v4 (ix3 (0 : Fin 1) l e) := by
  unfold k0_pay1
  refine (shapeCast_apply _ _ (ix4 (0 : Fin 1) i l e) (ix3 i l e) ?_).trans ?_
  · rewrite [Shape.rowMajor_val_three, Shape.rowMajor_val_four]
    show (i.val * 64 + l.val) * 128 + e.val = ((0 * 166 + i.val) * 64 + l.val) * 128 + e.val
    omega
  show broadcastTo S166x64x128 _ _ (ix3 i l e) + broadcastTo S166x64x128 _ _ (ix3 i l e) * broadcastTo S166x64x128 _ _ (ix3 i l e) = _
  exact congrArg₂ (· + ·) (rows_bcast v0 _ _ _ i l e) (congrArg₂ (· * ·) (rows_bcast v2 _ _ _ i l e) (tile_bcast v4 _ _ _ i l e))

end Cert.KerBlend

end
-- ==== Proof.KerHost.lean ====
/-
  The three operand arrays as the region finds them, read at an index. Before the region the host slices rows 1…166 of x
  (the earlier rows xp), rows 26…191 (the later rows xi) and subtracts, and computes the sigmoid 1/(1 + e^(−z)) of
  z = x·(W[0,0] − W[1,0]) + (bias[0] − bias[1]) over the whole of x.
-/
import proofs.«108405_j87986700026365_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.IdealHost

noncomputable section

namespace Cert.KerBlend

open Cert.KernelIdeal Cert.KernelIdeal.Gen Idealize.ShloMosaic Idealize.ShloMosaic.TcCoe Idealize.ShloMosaic.ValueIdx Idealize.SL.Sem
open Idealize.ShloMosaic.StableHlo

/-! ## Pure readings -/

/-- Rows o … o+165 of a [16,192,128] array: at (b, i, e) the array at row i + o. -/
theorem slice_rows {α : Type} (x : S16x192x128.Idx → α) (o : Nat) (ho : o + 166 ≤ 192) (h : S16x192x128.Slices ![0, o, 0] S16x166x128)
    (b : Fin 16) (i : Fin 166) (e : Fin 128) :
    extractStridedSlice S16x166x128 ![0, o, 0] x h (ix3 b i e) = x (ix3 b (⟨i.val + o, by omega⟩ : Fin 192) e) := by
  refine extractStridedSlice_apply _ x h _ (ix3 b (⟨i.val + o, by omega⟩ : Fin 192) e) (fun a => ?_)
  match a with
  | ⟨0, _⟩ => show b.val = 0 + b.val; omega
  | ⟨1, _⟩ => show i.val + o = o + i.val; omega
  | ⟨2, _⟩ => show e.val = 0 + e.val; omega

/-- Entry (o, 0) of a [2,1] array sliced out and reshaped to a scalar. -/
theorem scalar_of_2x1 {α : Type} (W : S2x1.Idx → α) (o : Nat) (ho : o < 2) (hs : S2x1.Slices ![o, 0] S1x1) (hc : S1x1.ShapeCasts S_)
    (k : S_.Idx) : shapeCast S_ (extractStridedSlice S1x1 ![o, 0] W hs) hc k = W (ix2 (⟨o, ho⟩ : Fin 2) (0 : Fin 1)) := by
  refine (shapeCast_apply _ hc k (ix2 (0 : Fin 1) (0 : Fin 1)) ?_).trans ?_
  · have h1 : (S_.rowMajor k).val < 1 := (S_.rowMajor k).isLt
    rewrite [Shape.rowMajor_val_two]
    show 0 * 1 + 0 = _
    omega
  refine extractStridedSlice_apply _ W hs _ (ix2 (⟨o, ho⟩ : Fin 2) (0 : Fin 1)) (fun a => ?_)
  match a with
  | ⟨0, _⟩ => show o = o + 0; omega
  | ⟨1, _⟩ => show 0 = 0 + 0; rfl

/-- Entry o of a [2] array sliced out and reshaped to a scalar. -/
theorem scalar_of_2 {α : Type} (v : S2.Idx → α) (o : Nat) (ho : o < 2) (hs : S2.Slices ![o] S1) (hc : S1.ShapeCasts S_)
    (k : S_.Idx) : shapeCast S_ (extractStridedSlice S1 ![o] v hs) hc k = v (ix1 (⟨o, ho⟩ : Fin 2)) := by
  refine (shapeCast_apply _ hc k (ix1 (0 : Fin 1)) ?_).trans ?_
  · have h1 : (S_.rowMajor k).val < 1 := (S_.rowMajor k).isLt
    rewrite [Shape.rowMajor_val_one]
    show 0 = _
    omega
  refine extractStridedSlice_apply _ v hs _ (ix1 (⟨o, ho⟩ : Fin 2)) (fun a => ?_)
  match a with
  | ⟨0, _⟩ => show o = o + 0; omega

/-- The host's sigmoid of x·(W[0,0] − W[1,0]) + (bias[0] − bias[1]) at (b, l, e). -/
theorem sig_term (x : S16x192x128.Idx → EReal) (W : S2x1.Idx → EReal) (v : S2.Idx → EReal)
    (hb : S_.BroadcastsInDim S16x192x128 (![] : Fin 0 → Fin S16x192x128.rank))
    (hs0 : S2x1.Slices ![0, 0] S1x1) (hs1 : S2x1.Slices ![1, 0] S1x1) (hc : S1x1.ShapeCasts S_)
    (ht0 : S2.Slices ![0] S1) (ht1 : S2.Slices ![1] S1) (hd : S1.ShapeCasts S_) (b : Fin 16) (l : Fin 192) (e : Fin 128) :
    Host.divf (F := Ideal) (φ := .f32) (broadcastInDim S16x192x128 ![] hb (constant (F := Ideal) S_ .f32 0x3F800000#32))
      (addf (broadcastInDim S16x192x128 ![] hb (constant (F := Ideal) S_ .f32 0x3F800000#32))
        (Host.exp (Host.negf
          (addf (mulf x (broadcastInDim S16x192x128 ![] hb
              (subf (fun i => shapeCast S_ (extractStridedSlice S1x1 ![0, 0] W hs0) hc i)
                (fun i => shapeCast S_ (extractStridedSlice S1x1 ![1, 0] W hs1) hc i))))
            (broadcastInDim S16x192x128 ![] hb
              (subf (fun i => shapeCast S_ (extractStridedSlice S1 ![0] v ht0) hd i)
                (fun i => shapeCast S_ (extractStridedSlice S1 ![1] v ht1) hd i))))))) (ix3 b l e)
      = Ideal.div 1 (1 + Ideal.exp (-(x (ix3 b l e) * (W (ix2 (0 : Fin 2) (0 : Fin 1)) - W (ix2 (1 : Fin 2) (0 : Fin 1)))
          + (v (ix1 (0 : Fin 2)) - v (ix1 (1 : Fin 2)))))) := by
  show Ideal.div (Ideal.ofBits .f32 0x3F800000#32) (Ideal.ofBits .f32 0x3F800000#32
      + Ideal.exp (-(x (ix3 b l e) * (shapeCast S_ (extractStridedSlice S1x1 ![0, 0] W hs0) hc _ - shapeCast S_ (extractStridedSlice S1x1 ![1, 0] W hs1) hc _)
          + (shapeCast S_ (extractStridedSlice S1 ![0] v ht0) hd _ - shapeCast S_ (extractStridedSlice S1 ![1] v ht1) hd _)))) = _
  rw [scalar_of_2x1 W 0 (by omega) hs0 hc, scalar_of_2x1 W 1 (by omega) hs1 hc, scalar_of_2 v 0 (by omega) ht0 hd,
    scalar_of_2 v 1 (by omega) ht1 hd, Ideal.ofBits_one_f32]
  rfl

/-! ## The arrays of this program -/

variable (m : (ℓ : Loc nD τ sig) → Buf (Elt Ideal) ℓ)

/-- The three argument arrays of core c at launch, as functions into the extended reals. -/
abbrev argX (c : Dev nD) : S16x192x128.Idx → EReal := m ((c : Thread nD τ).loc main_arg0)
abbrev argW (c : Dev nD) : S2x1.Idx → EReal := m ((c : Thread nD τ).loc main_arg1)
abbrev argB (c : Dev nD) : S2.Idx → EReal := m ((c : Thread nD τ).loc main_arg2)
/-- The three operand arrays of the region as core c finds them. -/
abbrev opA (c : Dev nD) : S16x166x128.Idx → EReal := V m c main_v20
abbrev opD (c : Dev nD) : S16x166x128.Idx → EReal := V m c main_v22
abbrev opS (c : Dev nD) : S16x192x128.Idx → EReal := V m c main_v19

/-- The earlier rows: the first operand at (b, i, e) is x at row i + 1. -/
theorem earlier_apply (c : Dev nD) (b : Fin 16) (i : Fin 166) (e : Fin 128) :
    opA m c (ix3 b i e) = argX m c (ix3 b (⟨i.val + 1, by omega⟩ : Fin 192) e) := by
  show StableHlo.after hostOps0 (fun b => m (c, b)) (Proc.devRef .tc main_v20) (ix3 b i e) = _
  after_results_simp
  exact slice_rows _ 1 (by omega) _ b i e

/-- The difference rows: the second operand at (b, i, e) is x at row i + 26 minus x at row i + 1. -/
theorem diff_apply (c : Dev nD) (b : Fin 16) (i : Fin 166) (e : Fin 128) :
    opD m c (ix3 b i e) = argX m c (ix3 b (⟨i.val + 26, by omega⟩ : Fin 192) e) - argX m c (ix3 b (⟨i.val + 1, by omega⟩ : Fin 192) e) := by
  show StableHlo.after hostOps0 (fun b => m (c, b)) (Proc.devRef .tc main_v22) (ix3 b i e) = _
  after_results_simp
  exact congrArg₂ (· - ·) (slice_rows _ 26 (by omega) _ b i e) (slice_rows _ 1 (by omega) _ b i e)

/-- The sigmoid weights: the third operand at (b, l, e). -/
theorem sig_apply (c : Dev nD) (b : Fin 16) (l : Fin 192) (e : Fin 128) :
    opS m c (ix3 b l e)
      = Ideal.div 1 (1 + Ideal.exp (-(argX m c (ix3 b l e)
          * (argW m c (ix2 (0 : Fin 2) (0 : Fin 1)) - argW m c (ix2 (1 : Fin 2) (0 : Fin 1)))
          + (argB m c (ix1 (0 : Fin 2)) - argB m c (ix1 (1 : Fin 2)))))) := by
  show StableHlo.after hostOps0 (fun b => m (c, b)) (Proc.devRef .tc main_v19) (ix3 b l e) = _
  after_results_simp
  exact sig_term _ _ _ _ _ _ _ _ _ _ b l e

end Cert.KerBlend

end
-- ==== Proof.KerArray.lean ====
/-
  The array the region leaves. Point (bb, lt) of the 16 × 3 grid reads block bb of the two [16,166,128] operands (all 166
  rows) and the 64 rows lt·64 … lt·64+63 of block bb of the [16,192,128] operand, and writes rows (all i, those 64 l) of block
  bb of the [16,166,192,128] result. What a point writes back is therefore a block of ONE function of the three operand
  arrays — a0(b,i,e) + a1(b,i,e)·a2(b,l,e) at (b,i,l,e) —, the 48 blocks tile the result, and the result array after the run is
  that function.
-/
import proofs.«108405_j87986700026365_1_alg».proof.Proof.Gen.KernelIdeal.Frame
import proofs.«108405_j87986700026365_1_alg».proof.Proof.KerPayload
import proofs.«108405_j87986700026365_1_alg».proof.Proof.KerHost
import Idealize.ShloMosaic.Lib.Pipeline.Value
import Idealize.ShloMosaic.Lib.ValueIdx

set_option maxRecDepth 16384

noncomputable section

namespace Cert.KerBlend

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The blended rows as one function of the three operand arrays: a0(b,i,e) + a1(b,i,e) · a2(b,l,e) at (b,i,l,e). -/
def blocks (a0 a1 : S16x166x128.Idx → EReal) (a2 : S16x192x128.Idx → EReal) : S16x166x192x128.Idx → EReal := fun j =>
  a0 (ix3 (⟨(j 0).val, (j 0).isLt⟩ : Fin 16) (⟨(j 1).val, (j 1).isLt⟩ : Fin 166) (⟨(j 3).val, (j 3).isLt⟩ : Fin 128))
    + a1 (ix3 (⟨(j 0).val, (j 0).isLt⟩ : Fin 16) (⟨(j 1).val, (j 1).isLt⟩ : Fin 166) (⟨(j 3).val, (j 3).isLt⟩ : Fin 128))
      * a2 (ix3 (⟨(j 0).val, (j 0).isLt⟩ : Fin 16) (⟨(j 2).val, (j 2).isLt⟩ : Fin 192) (⟨(j 3).val, (j 3).isLt⟩ : Fin 128))

/-- `blocks` at an index, from any three operand indices with the right coordinates. -/
theorem blocks_eq (a0 a1 : S16x166x128.Idx → EReal) (a2 : S16x192x128.Idx → EReal) (j : S16x166x192x128.Idx)
    (k0 k1 : S16x166x128.Idx) (k2 : S16x192x128.Idx)
    (h00 : (k0 0).val = (j 0).val) (h01 : (k0 1).val = (j 1).val) (h02 : (k0 2).val = (j 3).val)
    (h10 : (k1 0).val = (j 0).val) (h11 : (k1 1).val = (j 1).val) (h12 : (k1 2).val = (j 3).val)
    (h20 : (k2 0).val = (j 0).val) (h21 : (k2 1).val = (j 2).val) (h22 : (k2 2).val = (j 3).val) :
    a0 k0 + a1 k1 * a2 k2 = blocks a0 a1 a2 j := by
  have e0 : k0 = ix3 (⟨(j 0).val, (j 0).isLt⟩ : Fin 16) (⟨(j 1).val, (j 1).isLt⟩ : Fin 166) (⟨(j 3).val, (j 3).isLt⟩ : Fin 128) :=
    funext fun a => Fin.ext (by match a with | ⟨0, _⟩ => exact h00 | ⟨1, _⟩ => exact h01 | ⟨2, _⟩ => exact h02)
  have e1 : k1 = ix3 (⟨(j 0).val, (j 0).isLt⟩ : Fin 16) (⟨(j 1).val, (j 1).isLt⟩ : Fin 166) (⟨(j 3).val, (j 3).isLt⟩ : Fin 128) :=
    funext fun a => Fin.ext (by match a with | ⟨0, _⟩ => exact h10 | ⟨1, _⟩ => exact h11 | ⟨2, _⟩ => exact h12)
  have e2 : k2 = ix3 (⟨(j 0).val, (j 0).isLt⟩ : Fin 16) (⟨(j 2).val, (j 2).isLt⟩ : Fin 192) (⟨(j 3).val, (j 3).isLt⟩ : Fin 128) :=
    funext fun a => Fin.ext (by match a with | ⟨0, _⟩ => exact h20 | ⟨1, _⟩ => exact h21 | ⟨2, _⟩ => exact h22)
  rw [e0, e1, e2]
  rfl

/-- The stored value at any index of the staging block, from the three loaded blocks. -/
theorem pay_at (x0 x1 : Vec Ideal S1x166x128 .f32) (x2 : Vec Ideal S1x64x128 .f32) (y : S1x166x64x128.Idx) :
    k0_pay1 (F := Ideal) x0 x1 x2 y
      = x0 (ix3 (0 : Fin 1) (⟨(y 1).val, (y 1).isLt⟩ : Fin 166) (⟨(y 3).val, (y 3).isLt⟩ : Fin 128))
        + x1 (ix3 (0 : Fin 1) (⟨(y 1).val, (y 1).isLt⟩ : Fin 166) (⟨(y 3).val, (y 3).isLt⟩ : Fin 128))
          * x2 (ix3 (0 : Fin 1) (⟨(y 2).val, (y 2).isLt⟩ : Fin 64) (⟨(y 3).val, (y 3).isLt⟩ : Fin 128)) := by
  have hy : y = ix4 (0 : Fin 1) (⟨(y 1).val, (y 1).isLt⟩ : Fin 166) (⟨(y 2).val, (y 2).isLt⟩ : Fin 64) (⟨(y 3).val, (y 3).isLt⟩ : Fin 128) := by
    funext a; refine Fin.ext ?_
    match a with
    | ⟨0, _⟩ => have h0 : (y 0).val < 1 := (y 0).isLt; show (y 0).val = 0; omega
    | ⟨1, _⟩ => rfl
    | ⟨2, _⟩ => rfl
    | ⟨3, _⟩ => rfl
  exact (congrArg (k0_pay1 (F := Ideal) x0 x1 x2) hy).trans (pay_apply x0 x1 x2 _ _ _)

/-- The printed index maps over the grid: the two row operands and the result move with the batch coordinate alone on
    their leading axis, the third operand's row tile is the result's, and every other block index is zero. -/
theorem idx_facts : ∀ t : Fin cfg0.N,
    win0_0.index t (0 : Fin 3) = win0_3.index t (0 : Fin 4) ∧ win0_0.index t (1 : Fin 3) = 0 ∧ win0_0.index t (2 : Fin 3) = 0
    ∧ win0_1.index t (0 : Fin 3) = win0_3.index t (0 : Fin 4) ∧ win0_1.index t (1 : Fin 3) = 0 ∧ win0_1.index t (2 : Fin 3) = 0
    ∧ win0_2.index t (0 : Fin 3) = win0_3.index t (0 : Fin 4) ∧ win0_2.index t (1 : Fin 3) = win0_3.index t (2 : Fin 4)
    ∧ win0_2.index t (2 : Fin 3) = 0
    ∧ win0_3.index t (1 : Fin 4) = 0 ∧ win0_3.index t (3 : Fin 4) = 0 ∧ win0_3.index t (0 : Fin 4) ≤ 15 ∧ win0_3.index t (2 : Fin 4) ≤ 2 :=
  (by decide +kernel : ∀ t : Fin grid0.N, _)

/-- Every (batch, row tile) pair is some point's. -/
theorem idx_onto : ∀ (q0 : Fin 16) (q2 : Fin 3), ∃ t : Fin cfg0.N, win0_3.index t = ![q0.val, 0, q2.val, 0] :=
  (by decide +kernel : ∀ (q0 : Fin 16) (q2 : Fin 3), ∃ t : Fin grid0.N, win0_3.index t = ![q0.val, 0, q2.val, 0])

/-- WHAT POINT t WRITES BACK is block t of `blocks` of the three operand arrays as the region finds them. -/
theorem flushed_eq (c : Dev nD) (t : Fin cfg0.N) :
    (dats m 0 c).flushed 3 t = ((cfg0.win 3).blk t).view.read (Elt Ideal)
      (blocks (opA m c) (opD m c) (opS m c)) := by
  show (cfg0.win 3).cut (grid0.coords t) ((dats m 0 c).after 3 t) = _
  rw [after0_3]
  unfold out0_3
  rw [View.canon_unit_zero hz4]
  simp only [View.ld_unit_zero (S := S1x166x128) hz3, View.ld_unit_zero (S := S1x64x128) hz3]
  obtain ⟨e00, e01, e02, e10, e11, e12, e20, e21, e22, e31, e33, -, -⟩ := idx_facts t
  funext y
  refine (pay_at (iblk m c 0 t) (iblk m c 1 t) (iblk m c 2 t) y).trans ?_
  have hy0 : (y 0).val < 1 := (y 0).isLt
  show (opA m c) (((cfg0.win 0).blk t).view.emb (ix3 (0 : Fin 1) (⟨(y 1).val, (y 1).isLt⟩ : Fin 166) (⟨(y 3).val, (y 3).isLt⟩ : Fin 128)))
      + (opD m c) (((cfg0.win 1).blk t).view.emb (ix3 (0 : Fin 1) (⟨(y 1).val, (y 1).isLt⟩ : Fin 166) (⟨(y 3).val, (y 3).isLt⟩ : Fin 128)))
        * (opS m c) (((cfg0.win 2).blk t).view.emb (ix3 (0 : Fin 1) (⟨(y 2).val, (y 2).isLt⟩ : Fin 64) (⟨(y 3).val, (y 3).isLt⟩ : Fin 128)))
    = blocks (opA m c) (opD m c) (opS m c) (((cfg0.win 3).blk t).view.emb y)
  refine blocks_eq _ _ _ _ _ _ _ ?_ ?_ ?_ ?_ ?_ ?_ ?_ ?_ ?_
  · show win0_0.index t (0 : Fin 3) * 1 + 1 * 0 = win0_3.index t (0 : Fin 4) * 1 + 1 * (y 0).val; omega
  · show win0_0.index t (1 : Fin 3) * 166 + 1 * (y 1).val = win0_3.index t (1 : Fin 4) * 166 + 1 * (y 1).val; omega
  · show win0_0.index t (2 : Fin 3) * 128 + 1 * (y 3).val = win0_3.index t (3 : Fin 4) * 128 + 1 * (y 3).val; omega
  · show win0_1.index t (0 : Fin 3) * 1 + 1 * 0 = win0_3.index t (0 : Fin 4) * 1 + 1 * (y 0).val; omega
  · show win0_1.index t (1 : Fin 3) * 166 + 1 * (y 1).val = win0_3.index t (1 : Fin 4) * 166 + 1 * (y 1).val; omega
  · show win0_1.index t (2 : Fin 3) * 128 + 1 * (y 3).val = win0_3.index t (3 : Fin 4) * 128 + 1 * (y 3).val; omega
  · show win0_2.index t (0 : Fin 3) * 1 + 1 * 0 = win0_3.index t (0 : Fin 4) * 1 + 1 * (y 0).val; omega
  · show win0_2.index t (1 : Fin 3) * 64 + 1 * (y 2).val = win0_3.index t (2 : Fin 4) * 64 + 1 * (y 2).val; omega
  · show win0_2.index t (2 : Fin 3) * 128 + 1 * (y 3).val = win0_3.index t (3 : Fin 4) * 128 + 1 * (y 3).val; omega

/-- An index of the result array is in point t's block iff each coordinate is in the block's range on its axis. -/
theorem mem_blk (t : Fin cfg0.N) (i : S16x166x192x128.Idx) :
    i ∈ ((cfg0.win 3).blk t).view.set ↔ ∀ a : Fin 4, win0_3.index t a * S1x166x64x128.size a ≤ (i a).val ∧ (i a).val < win0_3.index t a * S1x166x64x128.size a + S1x166x64x128.size a := by
  show i ∈ ((View.whole main_v24).slice (win0_3.rect t)).set ↔ _
  rw [View.set_slice_whole, Rect.mem_set_unit]
  exact Iff.rfl

/-- Every index of the result array is in some point's block: the point of its batch and of its row tile l / 64. -/
theorem cover (i : S16x166x192x128.Idx) : ∃ t : Fin cfg0.N, (cfg0.win 3).flush t = true ∧ i ∈ ((cfg0.win 3).blk t).view.set := by
  have hi0 : (i 0).val < 16 := (i 0).isLt
  have hi1 : (i 1).val < 166 := (i 1).isLt
  have hi2 : (i 2).val < 192 := (i 2).isLt
  have hi3 : (i 3).val < 128 := (i 3).isLt
  obtain ⟨t, ht⟩ := idx_onto ⟨(i 0).val, hi0⟩ ⟨(i 2).val / 64, by omega⟩
  have q0 : win0_3.index t (0 : Fin 4) = (i 0).val := congrFun ht 0
  have q1 : win0_3.index t (1 : Fin 4) = 0 := congrFun ht 1
  have q2 : win0_3.index t (2 : Fin 4) = (i 2).val / 64 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 166 ≤ (i 1).val ∧ (i 1).val < win0_3.index t (1 : Fin 4) * 166 + 166; omega
  | ⟨2, _⟩ => show win0_3.index t (2 : Fin 4) * 64 ≤ (i 2).val ∧ (i 2).val < win0_3.index t (2 : Fin 4) * 64 + 64; omega
  | ⟨3, _⟩ => show win0_3.index t (3 : Fin 4) * 128 ≤ (i 3).val ∧ (i 3).val < win0_3.index t (3 : Fin 4) * 128 + 128; omega

/-- THE RESULT ARRAY after the run: `blocks` of the three operand arrays as the region finds them. -/
theorem final (c : Dev nD) : (dats m 0 c).arrAt 3 cfg0.N
    = blocks (opA m c) (opD m c) (opS m c) :=
  (dats m 0 c).arrAt_eq_of_cover 3 _ (fun t _ => flushed_eq m c t) (fun i => cover i)

end Cert.KerBlend

end
-- ==== Proof.KerRun.lean ====
/-
  The idealized kernel's run, read. After the region the host reshapes the [16,166,192,128] result to [16,31872,128] and puts
  the first 26 rows of x in front of it. So the kernel's result is that tail applied to x and to the array the region leaves,
  which is `blocks` of the three operand arrays.
-/
import proofs.«108405_j87986700026365_1_alg».proof.Proof.Gen.KernelIdeal.Frame
import proofs.«108405_j87986700026365_1_alg».proof.Proof.KerArray
import Idealize.ShloMosaic.Lib.StableHlo.Run

set_option maxRecDepth 16384

noncomputable section

namespace Cert.KerBlend

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- What both programs do last: the blended rows reshaped to [16, 166·192, 128] behind the first 26 rows of x. -/
def tail (x : S16x192x128.Idx → EReal) (B : S16x166x192x128.Idx → EReal) : S16x31898x128.Idx → EReal :=
  concatenate S16x31898x128 1
    [⟨S16x26x128, extractStridedSlice S16x26x128 ![0, 0, 0] x slices_S16x192x128_S16x26x128_0_0_0⟩,
      ⟨S16x31872x128, shapeCast S16x31872x128 B shapeCasts_S16x166x192x128_S16x31872x128⟩]
    concatenates_S16x26x128_S16x31872x128_S16x31898x128_d1

/-- The first 26 rows of x, as the host computed them before the region. -/
theorem head_eq (c : Dev nD) :
    V0 m c (Proc.devRef .tc main_v23) = extractStridedSlice S16x26x128 ![0, 0, 0] (argX m c) slices_S16x192x128_S16x26x128_0_0_0 := by
  show StableHlo.after hostOps0 (fun b => m (c, b)) (Proc.devRef .tc main_v23) = _
  after_results_simp

/-- The result buffer after the host lines that follow the region. -/
theorem tail_eq (c : Dev nD) :
    Pipeline.afterTail₀ cfgs (dats m) 0 (V0 m) [hostOps1] c main_v26 = tail (argX m c) ((dats m 0 c).arrAt 3 cfg0.N) := by
  unfold Pipeline.afterTail₀
  show StableHlo.after hostOps1 _ (Proc.devRef .tc main_v26) = _
  after_results
  have h23 : Pipeline.withArrays (cfgs 0).spec c (V0 m c) (fun w => (dats m 0 c).arrAt w (cfgs 0).N) (Proc.devRef .tc main_v23)
      = extractStridedSlice S16x26x128 ![0, 0, 0] (argX m c) slices_S16x192x128_S16x26x128_0_0_0 :=
    (Pipeline.withArrays_of_ne _ c (V0 m c) _ main_v23 (by exact (by decide : ∀ w, Pipeline.arrRef spec0 w ≠ main_v23))).trans (head_eq m c)
  have h24 : Pipeline.withArrays (cfgs 0).spec c (V0 m c) (fun w => (dats m 0 c).arrAt w (cfgs 0).N) (Proc.devRef .tc main_v24)
      = (dats m 0 c).arrAt 3 cfg0.N :=
    Pipeline.withArrays_arr spec0 launch0.win.arr_inj c _ _ 3
  unfold tail
  refine congrArg₂ (fun a b => concatenate S16x31898x128 1 [⟨S16x26x128, a⟩, ⟨S16x31872x128, b⟩]
    concatenates_S16x26x128_S16x31872x128_S16x31898x128_d1) h23 ?_
  exact congrArg (fun B => shapeCast S16x31872x128 B shapeCasts_S16x166x192x128_S16x31872x128) h24

/-- THE IDEALIZED KERNEL'S RUN: it terminates with the result at the tail of x and `blocks` of the three operand arrays, the
    arguments unchanged. -/
theorem run : θ_run defs (onTc (τ := τ) (main (F := Ideal))) ⟨m, fun _ => 0, ρ⟩ (fun r => ∀ c : Dev nD,
      r.2.mem ((c.tc : Thread nD τ).loc main_v26) = tail (argX m c) (blocks (opA m c) (opD m c) (opS m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).2 main_v26 (Pipeline.mem_restRefs_of main_v26 (by decide) (by decide))).trans (tail_eq m c)).trans
        (congrArg (tail (argX m c)) (final m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KerBlend

end
-- ==== Proof.RefBlocks.lean ====
/-
  The reference's blended rows, read at an index. The reference forms, for every batch b, position l and lane e, the two
  logits x[b,l,e]·W[k,0] + bias[k] (k = 0, 1), their soft-max over k (the larger logit subtracted, exponentials, divided by
  their sum), gathers the rows i+26 and i+1 of x (i < 166), and writes xi·s₀ + xp·s₁ at (b, i, l, e). Each stage is read at an
  index with explicit coordinates; the two gathers' start indices 26+i and 1+i are in range, so the clamp and the wrap of a
  negative index do nothing.
-/
import proofs.«108405_j87986700026365_1_alg».proof.Proof.RefRead
import Idealize.ShloMosaic.Lib.ValueIdx
import Idealize.ShloMosaic.PureOps.Reduce
import Idealize.ShloMosaic.PureOps.Ideal.Laws

noncomputable section

namespace Cert.RefBlocks

open Cert.ReferenceIdeal Cert.ReferenceIdeal.Read Idealize.ShloMosaic Idealize.ShloMosaic.ValueIdx

variable (x : (⟨S16x192x128, .f32⟩ : BufTy).Contents (Elt Ideal)) (W : (⟨S2x1, .f32⟩ : BufTy).Contents (Elt Ideal))
  (bb : (⟨S2, .f32⟩ : BufTy).Contents (Elt Ideal))

/-- The logit of class k at (b, l, e). -/
theorem logit_apply (b : Fin 16) (l : Fin 192) (e : Fin 128) (k : Fin 2) :
    val_main_v8 (F := Ideal) x W bb (ix4 b l e k) = x (ix3 b l e) * W (ix2 k (0 : Fin 1)) + bb (ix1 k) := by
  rw [val_main_v8_apply, val_main_v5_apply, val_main_v3_apply, val_main_v0_apply, val_main_v4_apply, val_main_v2_apply,
    val_main_v1_apply, val_main_v7_apply, val_main_v6_apply]
  have i0 : idx_main_v0 (idx_main_v3 (ix4 b l e k)) = ix3 b l e :=
    funext fun a => Fin.ext (by match a with | ⟨0, _⟩ => rfl | ⟨1, _⟩ => rfl | ⟨2, _⟩ => rfl)
  have i1 : idx_main_v1 (idx_main_v2 (idx_main_v4 (ix4 b l e k))) = ix2 k (0 : Fin 1) :=
    funext fun a => Fin.ext (by match a with | ⟨0, _⟩ => exact Nat.div_one _ | ⟨1, _⟩ => rfl)
  have i2 : idx_main_v6 (idx_main_v7 (ix4 b l e k)) = ix1 k :=
    funext fun a => Fin.ext (by match a with | ⟨0, _⟩ => rfl)
  rw [i0, i1, i2]
  rfl

/-- The shift the soft-max subtracts at (b, l, e): the larger of the two logits (the fold starts from -inf). -/
abbrev shift : (⟨S16x192x128, .f32⟩ : BufTy).Contents (Elt Ideal) := val_main_v11 (F := Ideal) x W bb

/-- The exponential of the shifted logit of class k at (b, l, e). -/
theorem expo_apply (b : Fin 16) (l : Fin 192) (e : Fin 128) (k : Fin 2) :
    val_main_v15 (F := Ideal) x W bb (ix4 b l e k)
      = Ideal.exp (x (ix3 b l e) * W (ix2 k (0 : Fin 1)) + bb (ix1 k) - shift x W bb (ix3 b l e)) := by
  rw [val_main_v15_apply, val_main_v14_apply, logit_apply, val_main_v13_apply, val_main_v12_apply]
  have i0 : idx_main_v12 (idx_main_v13 (ix4 b l e k)) = ix3 b l e :=
    funext fun a => Fin.ext (by match a with | ⟨0, _⟩ => rfl | ⟨1, _⟩ => rfl | ⟨2, _⟩ => rfl)
  rw [i0]
  rfl

/-- The soft-max weight of class k at (b, l, e). -/
theorem soft_apply (b : Fin 16) (l : Fin 192) (e : Fin 128) (k : Fin 2) :
    val_main_v19 (F := Ideal) x W bb (ix4 b l e k)
      = Ideal.div (Ideal.exp (x (ix3 b l e) * W (ix2 k (0 : Fin 1)) + bb (ix1 k) - shift x W bb (ix3 b l e)))
          (0 + (Ideal.exp (x (ix3 b l e) * W (ix2 (0 : Fin 2) (0 : Fin 1)) + bb (ix1 (0 : Fin 2)) - shift x W bb (ix3 b l e))
            + Ideal.exp (x (ix3 b l e) * W (ix2 (1 : Fin 2) (0 : Fin 1)) + bb (ix1 (1 : Fin 2)) - shift x W bb (ix3 b l e)))) := by
  rw [val_main_v19_apply, expo_apply, val_main_v18_apply, val_main_v17_apply, val_main_v16_apply, Fin.sum_univ_two]
  have i0 : idx_main_v17 (idx_main_v18 (ix4 b l e k)) = ix3 b l e :=
    funext fun a => Fin.ext (by match a with | ⟨0, _⟩ => rfl | ⟨1, _⟩ => rfl | ⟨2, _⟩ => rfl)
  have j0 : idx_main_v16 (ix3 b l e) (0 : Fin 2) = ix4 b l e (0 : Fin 2) :=
    funext fun a => Fin.ext (by match a with | ⟨0, _⟩ => rfl | ⟨1, _⟩ => rfl | ⟨2, _⟩ => rfl | ⟨3, _⟩ => rfl)
  have j1 : idx_main_v16 (ix3 b l e) (1 : Fin 2) = ix4 b l e (1 : Fin 2) :=
    funext fun a => Fin.ext (by match a with | ⟨0, _⟩ => rfl | ⟨1, _⟩ => rfl | ⟨2, _⟩ => rfl | ⟨3, _⟩ => rfl)
  rw [i0, j0, j1, expo_apply, expo_apply, val_main_cst_1_apply]
  show Ideal.div _ (Ideal.ofBits .f32 0x00000000#32 + _) = _
  rw [Ideal.ofBits_zero_f32]

end Cert.RefBlocks

end
-- ==== Proof.RefGather.lean ====
/-
  The reference's two row gathers read at an index. The start indices are 26 + i and (26 + i) − 25 for i < 166, computed on
  32-bit words with the wrap of a negative index (add 192 when below zero) that never fires; the gather clamps a start index
  into [0, 191], which does nothing to an index below 192. So the first gather reads row i + 26 and the second row i + 1.
-/
import proofs.«108405_j87986700026365_1_alg».proof.Proof.RefRead
import Idealize.ShloMosaic.Lib.ValueIdx

noncomputable section

namespace Cert.RefGather

open Cert.ReferenceIdeal Cert.ReferenceIdeal.Read Idealize.ShloMosaic Idealize.ShloMosaic.ValueIdx

/-- The gather's dimension numbers: axis 1 of the operand is indexed, axes 0 and 2 are taken whole. -/
abbrev gd : GatherDims S16x192x128 S166x1 S16x166x128 := gather_S16x192x128_S166x1_S16x166x128_02_1_n_n_1_1_161128

/-- A row gather along axis 1 read at (b, i, e): the operand's row at the start index of i, clamped into [0, 191]. -/
theorem gather_apply {α : Type} (x : S16x192x128.Idx → α) (idx : IVec S166x1 32) (b : Fin 16) (i : Fin 166) (e : Fin 128) :
    Host.gather gd x idx (ix3 b i e)
      = x (ix3 b (⟨min (idx (ix2 i (0 : Fin 1))).toInt.toNat (192 - 1), by omega⟩ : Fin 192) e) := by
  unfold Host.gather
  refine congrArg x (funext fun a => Fin.ext ?_)
  match a with
  | ⟨0, _⟩ =>
    show gd.start (ix3 b i e) idx 0 + gd.batchCoord (ix3 b i e) 0 + gd.offCoord (ix3 b i e) 0 = b.val
    have hs : gd.start (ix3 b i e) idx 0 = 0 := by unfold GatherDims.start; exact dif_neg (by decide)
    have hb : gd.batchCoord (ix3 b i e) 0 = 0 := GatherDims.batchCoord_eq_zero _ _ _ (by decide)
    have ho : gd.offCoord (ix3 b i e) 0 = b.val := by unfold GatherDims.offCoord; rw [dif_pos (by decide)]; rfl
    rw [hs, hb, ho]; omega
  | ⟨1, _⟩ =>
    show gd.start (ix3 b i e) idx 1 + gd.batchCoord (ix3 b i e) 1 + gd.offCoord (ix3 b i e) 1 = min (idx (ix2 i (0 : Fin 1))).toInt.toNat (192 - 1)
    have hb : gd.batchCoord (ix3 b i e) 1 = 0 := GatherDims.batchCoord_eq_zero _ _ _ (by decide)
    have ho : gd.offCoord (ix3 b i e) 1 = 0 := GatherDims.offCoord_eq_zero _ _ _ (by decide)
    have hs : gd.start (ix3 b i e) idx 1 = min (idx (ix2 i (0 : Fin 1))).toInt.toNat (192 - 1) := by
      unfold GatherDims.start
      rw [dif_pos (by decide)]
      have hsi : gd.siIdx (ix3 b i e) ⟨List.idxOf (1 : Fin 3) gd.startIndexMap, List.idxOf_lt_length_iff.2 (by decide)⟩ = ix2 i (0 : Fin 1) := by
        funext c; refine Fin.ext ?_
        match c with
        | ⟨0, _⟩ => rfl
        | ⟨1, _⟩ => rfl
      rw [hsi]
      rfl
    rw [hs, hb, ho]; omega
  | ⟨2, _⟩ =>
    show gd.start (ix3 b i e) idx 2 + gd.batchCoord (ix3 b i e) 2 + gd.offCoord (ix3 b i e) 2 = e.val
    have hs : gd.start (ix3 b i e) idx 2 = 0 := by unfold GatherDims.start; exact dif_neg (by decide)
    have hb : gd.batchCoord (ix3 b i e) 2 = 0 := GatherDims.batchCoord_eq_zero _ _ _ (by decide)
    have ho : gd.offCoord (ix3 b i e) 2 = e.val := by unfold GatherDims.offCoord; rw [dif_pos (by decide)]; rfl
    rw [hs, hb, ho]; omega

/-- The first gather's start index of i, as a natural number: 26 + i (the wrap of a negative index does not fire). -/
theorem later_word : ∀ i : Fin 166,
    (Scalar.select (IntOp.cmpi .slt (IntOp.addi 26#32 (BitVec.ofNat 32 i.val)) 0#32)
      (IntOp.addi (IntOp.addi 26#32 (BitVec.ofNat 32 i.val)) 192#32) (IntOp.addi 26#32 (BitVec.ofNat 32 i.val))).toInt.toNat = i.val + 26 := by
  decide +kernel

/-- The second gather's start index of i: (26 + i) − 25 = i + 1. -/
theorem earlier_word : ∀ i : Fin 166,
    (Scalar.select (IntOp.cmpi .slt (IntOp.subi (IntOp.addi 26#32 (BitVec.ofNat 32 i.val)) 25#32) 0#32)
      (IntOp.addi (IntOp.subi (IntOp.addi 26#32 (BitVec.ofNat 32 i.val)) 25#32) 192#32)
      (IntOp.subi (IntOp.addi 26#32 (BitVec.ofNat 32 i.val)) 25#32)).toInt.toNat = i.val + 1 := by
  decide +kernel

theorem later_start (i : Fin 166) : (val_main_v28 (F := Ideal) (ix2 i (0 : Fin 1))).toInt.toNat = i.val + 26 := by
  simp only [val_main_v28_apply, val_main_v27_apply, val_main_v24_apply, val_main_v26_apply, val_main_v22_apply, val_main_v21_apply,
    val_main_c_apply, val_main_v20_apply, val_main_v23_apply, val_main_c_2_apply, val_main_v25_apply, val_main_c_3_apply]
  exact later_word i

theorem earlier_start (i : Fin 166) : (val_main_v37 (F := Ideal) (ix2 i (0 : Fin 1))).toInt.toNat = i.val + 1 := by
  simp only [val_main_v37_apply, val_main_v36_apply, val_main_v33_apply, val_main_v35_apply, val_main_v31_apply, val_main_v30_apply,
    val_main_c_4_apply, val_main_v32_apply, val_main_c_5_apply, val_main_v34_apply, val_main_c_6_apply, val_main_v22_apply,
    val_main_v21_apply, val_main_c_apply, val_main_v20_apply]
  exact earlier_word i

/-- The first gather at (b, i, e) is x at row i + 26. -/
theorem later_rows (x : (⟨S16x192x128, .f32⟩ : BufTy).Contents (Elt Ideal)) (b : Fin 16) (i : Fin 166) (e : Fin 128) :
    val_main_v29 (F := Ideal) x (ix3 b i e) = x (ix3 b (⟨i.val + 26, by omega⟩ : Fin 192) e) := by
  unfold val_main_v29
  refine (gather_apply x _ b i e).trans (congrArg x (congrArg (fun r : Fin 192 => ix3 b r e) (Fin.ext ?_)))
  show min (val_main_v28 (F := Ideal) (ix2 i (0 : Fin 1))).toInt.toNat (192 - 1) = i.val + 26
  rw [later_start]; omega

/-- The second gather at (b, i, e) is x at row i + 1. -/
theorem earlier_rows (x : (⟨S16x192x128, .f32⟩ : BufTy).Contents (Elt Ideal)) (b : Fin 16) (i : Fin 166) (e : Fin 128) :
    val_main_v38 (F := Ideal) x (ix3 b i e) = x (ix3 b (⟨i.val + 1, by omega⟩ : Fin 192) e) := by
  unfold val_main_v38
  refine (gather_apply x _ b i e).trans (congrArg x (congrArg (fun r : Fin 192 => ix3 b r e) (Fin.ext ?_)))
  show min (val_main_v37 (F := Ideal) (ix2 i (0 : Fin 1))).toInt.toNat (192 - 1) = i.val + 1
  rw [earlier_start]; omega

end Cert.RefGather

end
-- ==== Proof.RefValue.lean ====
/-
  The reference's blended rows at (b, i, l, e): x at row i + 26 times the soft-max weight of class 0 at (b, l, e), plus x at
  row i + 1 times the weight of class 1 — the stages of the reference read one after the other, the broadcasts and the
  reshape between them being re-indexings.
-/
import proofs.«108405_j87986700026365_1_alg».proof.Proof.RefBlocks
import proofs.«108405_j87986700026365_1_alg».proof.Proof.RefGather

noncomputable section

namespace Cert.RefBlocks

open Cert.ReferenceIdeal Cert.ReferenceIdeal.Read Idealize.ShloMosaic Idealize.ShloMosaic.ValueIdx Cert.RefGather

variable (x : (⟨S16x192x128, .f32⟩ : BufTy).Contents (Elt Ideal)) (W : (⟨S2x1, .f32⟩ : BufTy).Contents (Elt Ideal))
  (bb : (⟨S2, .f32⟩ : BufTy).Contents (Elt Ideal))

theorem row_idx0 (b : Fin 16) (i : Fin 166) (l : Fin 192) (e : Fin 128) :
    idx_main_v39 (idx_main_v43 (ix4 b i l e)) = ix3 b i e :=
  funext fun a => Fin.ext (by match a with | ⟨0, _⟩ => rfl | ⟨1, _⟩ => rfl | ⟨2, _⟩ => rfl)

theorem row_idx1 (b : Fin 16) (i : Fin 166) (l : Fin 192) (e : Fin 128) :
    idx_main_v46 (idx_main_v50 (ix4 b i l e)) = ix3 b i e :=
  funext fun a => Fin.ext (by match a with | ⟨0, _⟩ => rfl | ⟨1, _⟩ => rfl | ⟨2, _⟩ => rfl)

theorem weight_idx0 (b : Fin 16) (i : Fin 166) (l : Fin 192) (e : Fin 128) :
    idx_main_v40 (idx_main_v41 (idx_main_v42 (idx_main_v44 (ix4 b i l e)))) = ix4 b l e (0 : Fin 2) := by
  have hb := b.isLt; have hl := l.isLt; have he := e.isLt
  funext a; refine Fin.ext ?_
  match a with
  | ⟨0, _⟩ => show ((b.val * 192 + l.val) * 128 + e.val) / 24576 = b.val; omega
  | ⟨1, _⟩ => show ((b.val * 192 + l.val) * 128 + e.val) / 128 % 192 = l.val; omega
  | ⟨2, _⟩ => show ((b.val * 192 + l.val) * 128 + e.val) / 1 % 128 = e.val; omega
  | ⟨3, _⟩ => rfl

theorem weight_idx1 (b : Fin 16) (i : Fin 166) (l : Fin 192) (e : Fin 128) :
    idx_main_v47 (idx_main_v48 (idx_main_v49 (idx_main_v51 (ix4 b i l e)))) = ix4 b l e (1 : Fin 2) := by
  have hb := b.isLt; have hl := l.isLt; have he := e.isLt
  funext a; refine Fin.ext ?_
  match a with
  | ⟨0, _⟩ => show ((b.val * 192 + l.val) * 128 + e.val) / 24576 = b.val; omega
  | ⟨1, _⟩ => show ((b.val * 192 + l.val) * 128 + e.val) / 128 % 192 = l.val; omega
  | ⟨2, _⟩ => show ((b.val * 192 + l.val) * 128 + e.val) / 1 % 128 = e.val; omega
  | ⟨3, _⟩ => rfl

/-- The reference's blended rows at (b, i, l, e), the soft-max weights still named. -/
theorem blend_apply (b : Fin 16) (i : Fin 166) (l : Fin 192) (e : Fin 128) :
    val_main_v53 (F := Ideal) x W bb (ix4 b i l e)
      = x (ix3 b (⟨i.val + 26, by omega⟩ : Fin 192) e) * val_main_v19 (F := Ideal) x W bb (ix4 b l e (0 : Fin 2))
        + x (ix3 b (⟨i.val + 1, by omega⟩ : Fin 192) e) * val_main_v19 (F := Ideal) x W bb (ix4 b l e (1 : Fin 2)) := by
  rw [val_main_v53_apply, val_main_v45_apply, val_main_v52_apply, val_main_v43_apply, val_main_v39_apply, val_main_v44_apply,
    val_main_v42_apply, val_main_v41_apply, val_main_v40_apply, val_main_v50_apply, val_main_v46_apply, val_main_v51_apply,
    val_main_v49_apply, val_main_v48_apply, val_main_v47_apply, row_idx0, row_idx1, weight_idx0, weight_idx1, later_rows,
    earlier_rows]
  rfl

end Cert.RefBlocks

end
-- ==== Proof.BlendLaw.lean ====
/-
  The scalar law behind the certificate. For finite reals, with l0 = xl·w0 + b0 and l1 = xl·w1 + b1 the two logits and
  m any finite shift (the soft-max subtracts the larger logit; the law does not care which finite number it is):

    xi · e^(l0−m)/(0 + (e^(l0−m) + e^(l1−m)))  +  xp · e^(l1−m)/(0 + (e^(l0−m) + e^(l1−m)))
      =  xp + (xi − xp) · 1/(1 + e^(−(xl·(w0−w1) + (b0−b1))))

  because e^(−(l0−l1)) = e^(l1−m)/e^(l0−m): the two soft-max weights are σ(l0−l1) and 1 − σ(l0−l1), and a convex
  combination a·s + b·(1−s) is b + (a−b)·s. The law uses distributivity and cancellation, so it is stated for finite
  numbers only; on the extended reals it is read through the coercion of the reals.
-/
import Idealize.ShloMosaic.PureOps.Ideal
import Idealize.ShloMosaic.PureOps.Ideal.Laws
import Idealize.ShloMosaic.Lib.IdealHost

namespace Cert.Blend

open Idealize.ShloMosaic

/-- The law over the reals. -/
theorem blend_real (xp xi xl w0 w1 b0 b1 m : ℝ) :
    xi * (Real.exp (xl * w0 + b0 - m) * (1 / (0 + (Real.exp (xl * w0 + b0 - m) + Real.exp (xl * w1 + b1 - m)))))
      + xp * (Real.exp (xl * w1 + b1 - m) * (1 / (0 + (Real.exp (xl * w0 + b0 - m) + Real.exp (xl * w1 + b1 - m)))))
    = xp + (xi - xp) * (1 * (1 / (1 + Real.exp (-(xl * (w0 - w1) + (b0 - b1)))))) := by
  have hA := Real.exp_pos (xl * w0 + b0 - m)
  have hB := Real.exp_pos (xl * w1 + b1 - m)
  have hz : Real.exp (-(xl * (w0 - w1) + (b0 - b1))) = Real.exp (xl * w1 + b1 - m) / Real.exp (xl * w0 + b0 - m) := by
    rw [← Real.exp_sub]; congr 1; ring
  rw [hz]
  field_simp
  ring

/-- A quotient of two finite numbers, the divisor not zero, is the real quotient. -/
theorem div_real (a b : ℝ) (hb : b ≠ 0) : Ideal.div (a : EReal) (b : EReal) = ((a * (1 / b) : ℝ) : EReal) := by
  rw [Ideal.div_coe hb, ← EReal.coe_mul]

/-- The law on the extended reals, at finite numbers: the reference's two soft-max weights applied to the later and the
    earlier row against the kernel's sigmoid blend. -/
theorem blend_ereal (xp xi xl w0 w1 b0 b1 m : ℝ) :
    (xi : EReal) * Ideal.div (Ideal.exp ((xl : EReal) * w0 + b0 - m))
        (0 + (Ideal.exp ((xl : EReal) * w0 + b0 - m) + Ideal.exp ((xl : EReal) * w1 + b1 - m)))
      + (xp : EReal) * Ideal.div (Ideal.exp ((xl : EReal) * w1 + b1 - m))
        (0 + (Ideal.exp ((xl : EReal) * w0 + b0 - m) + Ideal.exp ((xl : EReal) * w1 + b1 - m)))
    = (xp : EReal) + ((xi : EReal) - xp) * Ideal.div 1 (1 + Ideal.exp (-((xl : EReal) * ((w0 : EReal) - w1) + ((b0 : EReal) - b1)))) := by
  have hA := Real.exp_pos (xl * w0 + b0 - m)
  have hB := Real.exp_pos (xl * w1 + b1 - m)
  have hC := Real.exp_pos (-(xl * (w0 - w1) + (b0 - b1)))
  have e0 : (xl : EReal) * w0 + b0 - m = ((xl * w0 + b0 - m : ℝ) : EReal) := by norm_cast
  have e1 : (xl : EReal) * w1 + b1 - m = ((xl * w1 + b1 - m : ℝ) : EReal) := by norm_cast
  have e2 : -((xl : EReal) * ((w0 : EReal) - w1) + ((b0 : EReal) - b1)) = ((-(xl * (w0 - w1) + (b0 - b1)) : ℝ) : EReal) := by norm_cast
  have d0 : (0 : EReal) + (((Real.exp (xl * w0 + b0 - m) : ℝ) : EReal) + ((Real.exp (xl * w1 + b1 - m) : ℝ) : EReal))
      = ((0 + (Real.exp (xl * w0 + b0 - m) + Real.exp (xl * w1 + b1 - m)) : ℝ) : EReal) := by norm_cast
  have d1 : (1 : EReal) + ((Real.exp (-(xl * (w0 - w1) + (b0 - b1))) : ℝ) : EReal)
      = ((1 + Real.exp (-(xl * (w0 - w1) + (b0 - b1))) : ℝ) : EReal) := by norm_cast
  rw [e0, e1, e2, Ideal.exp_coe, Ideal.exp_coe, Ideal.exp_coe, d0, d1,
    div_real _ _ (by positivity), div_real _ _ (by positivity),
    show (1 : EReal) = ((1 : ℝ) : EReal) from rfl, div_real _ _ (by positivity)]
  exact_mod_cast blend_real xp xi xl w0 w1 b0 b1 m

/-- The float word of `-inf` denotes the bottom of the extended reals. -/
theorem ofBits_neg_inf : Ideal.ofBits .f32 0xFF800000#32 = ⊥ := by
  simp [Ideal.ofBits, Ideal.ieee]

end Cert.Blend
-- ==== Proof.RefShift.lean ====
/-
  The soft-max's shift is a finite number. The reference subtracts from both logits their maximum, computed as a fold of max
  from -inf over the two classes (and once more against -inf). When x, W and the bias hold real numbers both logits are real,
  and the maximum of a non-empty family of reals, started from -inf, is one of them: a real.
-/
import proofs.«108405_j87986700026365_1_alg».proof.Proof.RefBlocks
import proofs.«108405_j87986700026365_1_alg».proof.Proof.BlendLaw
import Mathlib.Data.Finset.Fold

noncomputable section

namespace Cert.RefBlocks

open Cert.ReferenceIdeal Cert.ReferenceIdeal.Gen Cert.ReferenceIdeal.Read Idealize.ShloMosaic Idealize.ShloMosaic.ValueIdx

/-- A fold of max from -inf over a non-empty finite family of reals is a real. -/
theorem fold_max_real {ι : Type} (s : Finset ι) (f : ι → EReal) (hs : s.Nonempty) (hf : ∀ k, ∃ r : ℝ, f k = r) :
    ∃ r : ℝ, s.fold max ⊥ f = r := by
  have h1 : s.fold max ⊥ f < ⊤ :=
    (Finset.fold_max_lt ⊤).2 ⟨bot_lt_top, fun k _ => by obtain ⟨r, hr⟩ := hf k; rw [hr]; exact EReal.coe_lt_top r⟩
  have h2 : ⊥ < s.fold max ⊥ f :=
    (Finset.lt_fold_max ⊥).2 (Or.inr (by
      obtain ⟨k, hk⟩ := hs
      obtain ⟨r, hr⟩ := hf k
      exact ⟨k, hk, by rw [hr]; exact EReal.bot_lt_coe r⟩))
  exact ⟨(s.fold max ⊥ f).toReal, (EReal.coe_toReal h1.ne h2.ne').symm⟩

variable (x : (⟨S16x192x128, .f32⟩ : BufTy).Contents (Elt Ideal)) (W : (⟨S2x1, .f32⟩ : BufTy).Contents (Elt Ideal))
  (bb : (⟨S2, .f32⟩ : BufTy).Contents (Elt Ideal))

/-- Every logit is a real. -/
theorem logit_real (hx : ∀ i, ∃ r : ℝ, x i = r) (hW : ∀ i, ∃ r : ℝ, W i = r) (hb : ∀ i, ∃ r : ℝ, bb i = r)
    (j : S16x192x128x2.Idx) : ∃ r : ℝ, val_main_v8 (F := Ideal) x W bb j = r := by
  have hj : j = ix4 (⟨(j 0).val, (j 0).isLt⟩ : Fin 16) (⟨(j 1).val, (j 1).isLt⟩ : Fin 192) (⟨(j 2).val, (j 2).isLt⟩ : Fin 128)
      (⟨(j 3).val, (j 3).isLt⟩ : Fin 2) :=
    funext fun a => Fin.ext (by match a with | ⟨0, _⟩ => rfl | ⟨1, _⟩ => rfl | ⟨2, _⟩ => rfl | ⟨3, _⟩ => rfl)
  have e := (congrArg (val_main_v8 (F := Ideal) x W bb) hj).trans (logit_apply x W bb _ _ _ _)
  obtain ⟨rx, hrx⟩ := hx (ix3 (⟨(j 0).val, (j 0).isLt⟩ : Fin 16) (⟨(j 1).val, (j 1).isLt⟩ : Fin 192) (⟨(j 2).val, (j 2).isLt⟩ : Fin 128))
  obtain ⟨rw', hrw⟩ := hW (ix2 (⟨(j 3).val, (j 3).isLt⟩ : Fin 2) (0 : Fin 1))
  obtain ⟨rb, hrb⟩ := hb (ix1 (⟨(j 3).val, (j 3).isLt⟩ : Fin 2))
  exact ⟨rx * rw' + rb, by rw [e, hrx, hrw, hrb]; norm_cast⟩

/-- The shift at every (b, l, e) is a real. -/
theorem shift_real (hx : ∀ i, ∃ r : ℝ, x i = r) (hW : ∀ i, ∃ r : ℝ, W i = r) (hb : ∀ i, ∃ r : ℝ, bb i = r)
    (q : S16x192x128.Idx) : ∃ r : ℝ, shift x W bb q = r := by
  show ∃ r : ℝ, val_main_v11 (F := Ideal) x W bb q = r
  rw [val_main_v11_apply, val_main_v10_apply, val_main_cst_0_apply]
  unfold val_main_v9
  rw [Host.reduce_eq_fold_single FloatOps.maximumf _ _ reducesTo_S16x192x128x2_S16x192x128_d3
    (by decide : S16x192x128x2.Reduces [3] S16x192x128) h_S_ q, val_main_cst_apply]
  show ∃ r : ℝ, max (Ideal.ofBits .f32 0xFF800000#32)
    ((Finset.univ : Finset (Fin (S16x192x128x2.size 3))).fold max (Ideal.ofBits .f32 0xFF800000#32) _) = r
  rw [Cert.Blend.ofBits_neg_inf, max_bot_left]
  exact fold_max_real _ _ ⟨⟨0, by decide⟩, Finset.mem_univ _⟩ (fun k => logit_real x W bb hx hW hb _)

end Cert.RefBlocks

end
-- ==== Proof.Bridge.lean ====
/-
  The bridge. At every (b, i, l, e) the array the kernel's region leaves, xp + (xi − xp)·σ with xp = x[b,i+1,e], xi = x[b,i+26,e]
  and σ the sigmoid of the logit difference at (b, l, e), is the reference's xi·s₀ + xp·s₁ with (s₀, s₁) the soft-max of the two
  logits there — the scalar law of BlendLaw.lean, which needs every entry finite. Both programs then apply the same tail.
-/
import proofs.«108405_j87986700026365_1_alg».proof.Proof.KerArray
import proofs.«108405_j87986700026365_1_alg».proof.Proof.KerRun
import proofs.«108405_j87986700026365_1_alg».proof.Proof.RefValue
import proofs.«108405_j87986700026365_1_alg».proof.Proof.RefShift
import proofs.«108405_j87986700026365_1_alg».proof.Proof.BlendLaw

noncomputable section

namespace Cert.Bridge

open Idealize.ShloMosaic Idealize.ShloMosaic.ValueIdx Cert.ReferenceIdeal.Read

variable (x : Cert.ReferenceIdeal.S16x192x128.Idx → EReal) (W : Cert.ReferenceIdeal.S2x1.Idx → EReal) (v : Cert.ReferenceIdeal.S2.Idx → EReal)
  (hx : ∀ i, ∃ r : ℝ, x i = r) (hW : ∀ i, ∃ r : ℝ, W i = r) (hv : ∀ i, ∃ r : ℝ, v i = r)
  (a0 a1 : Cert.KernelIdeal.S16x166x128.Idx → EReal) (a2 : Cert.KernelIdeal.S16x192x128.Idx → EReal)
  (h0 : ∀ (b : Fin 16) (i : Fin 166) (e : Fin 128), a0 (ix3 b i e) = x (ix3 b (⟨i.val + 1, by omega⟩ : Fin 192) e))
  (h1 : ∀ (b : Fin 16) (i : Fin 166) (e : Fin 128), a1 (ix3 b i e)
    = x (ix3 b (⟨i.val + 26, by omega⟩ : Fin 192) e) - x (ix3 b (⟨i.val + 1, by omega⟩ : Fin 192) e))
  (h2 : ∀ (b : Fin 16) (l : Fin 192) (e : Fin 128), a2 (ix3 b l e)
    = Ideal.div 1 (1 + Ideal.exp (-(x (ix3 b l e) * (W (ix2 (0 : Fin 2) (0 : Fin 1)) - W (ix2 (1 : Fin 2) (0 : Fin 1)))
        + (v (ix1 (0 : Fin 2)) - v (ix1 (1 : Fin 2)))))))

include hx hW hv h0 h1 h2 in
/-- The two sides at (b, i, l, e). -/
theorem at_ix (b : Fin 16) (i : Fin 166) (l : Fin 192) (e : Fin 128) :
    Cert.KerBlend.blocks a0 a1 a2 (ix4 b i l e) = val_main_v53 (F := Ideal) x W v (ix4 b i l e) := by
  show a0 (ix3 b i e) + a1 (ix3 b i e) * a2 (ix3 b l e) = _
  rw [h0, h1, h2, Cert.RefBlocks.blend_apply, Cert.RefBlocks.soft_apply, Cert.RefBlocks.soft_apply]
  obtain ⟨xp, hxp⟩ := hx (ix3 b (⟨i.val + 1, by omega⟩ : Fin 192) e)
  obtain ⟨xi, hxi⟩ := hx (ix3 b (⟨i.val + 26, by omega⟩ : Fin 192) e)
  obtain ⟨xl, hxl⟩ := hx (ix3 b l e)
  obtain ⟨w0, hw0⟩ := hW (ix2 (0 : Fin 2) (0 : Fin 1))
  obtain ⟨w1, hw1⟩ := hW (ix2 (1 : Fin 2) (0 : Fin 1))
  obtain ⟨b0, hb0⟩ := hv (ix1 (0 : Fin 2))
  obtain ⟨b1, hb1⟩ := hv (ix1 (1 : Fin 2))
  obtain ⟨mx, hmx⟩ := Cert.RefBlocks.shift_real x W v hx hW hv (ix3 b l e)
  rw [hxp, hxi, hxl, hw0, hw1, hb0, hb1, hmx]
  exact (Cert.Blend.blend_ereal xp xi xl w0 w1 b0 b1 mx).symm

include hx hW hv h0 h1 h2 in
/-- The region's array is the reference's blended rows. -/
theorem blocks_eq_ref : Cert.KerBlend.blocks a0 a1 a2 = val_main_v53 (F := Ideal) x W v := by
  funext j
  have hj : j = ix4 (⟨(j 0).val, (j 0).isLt⟩ : Fin 16) (⟨(j 1).val, (j 1).isLt⟩ : Fin 166) (⟨(j 2).val, (j 2).isLt⟩ : Fin 192)
      (⟨(j 3).val, (j 3).isLt⟩ : Fin 128) :=
    funext fun a => Fin.ext (by match a with | ⟨0, _⟩ => rfl | ⟨1, _⟩ => rfl | ⟨2, _⟩ => rfl | ⟨3, _⟩ => rfl)
  exact (congrArg (Cert.KerBlend.blocks a0 a1 a2) hj).trans
    ((at_ix x W v hx hW hv a0 a1 a2 h0 h1 h2 _ _ _ _).trans (congrArg (val_main_v53 (F := Ideal) x W v) hj.symm))

include hx hW hv h0 h1 h2 in
/-- The reference's result is the shared tail of x and the region's array. -/
theorem ref_result : val_main_v56 (F := Ideal) x W v = Cert.KerBlend.tail x (Cert.KerBlend.blocks a0 a1 a2) := by
  rw [blocks_eq_ref x W v hx hW hv a0 a1 a2 h0 h1 h2]
  rfl

end Cert.Bridge

end
-- ==== Proof.PreFinite.lean ====
/-
  What the precondition says. The predicate `finite_inputs` is the conjunction of three `all(|a| < +inf)` tests, one per
  argument array; on the extended reals |a| = max a (−a) is +inf exactly at the two infinities, so the predicate being
  all ones says that every entry of every argument is a real number.
-/
import proofs.«108405_j87986700026365_1_alg».proof.Pre_finite_inputs
import Idealize.ShloMosaic.PureOps.Ideal
import Idealize.ShloMosaic.Lib.ReduceAll
import Idealize.ShloMosaic.Lib.ValueIdx

noncomputable section

namespace Cert.BlendPre

open Idealize.ShloMosaic Cert.Pre_finite_inputs

instance : Subsingleton S_.Idx := ⟨fun a b => funext fun d => d.elim0⟩

/-- An extended real whose absolute value is below +inf is a real number. -/
theorem real_of_abs_lt (x : EReal) (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

variable [Facts]

/-- The precondition's function all ones: every entry of x, W and the bias is a real number. -/
theorem finite_of_fn (x : FVec Ideal S16x192x128 .f32) (W : FVec Ideal S2x1 .f32) (v : FVec Ideal S2 .f32)
    (h : fn (F := Ideal) x W v = fun _ => 1#1) :
    (∀ i, ∃ r : ℝ, x i = r) ∧ (∀ i, ∃ r : ℝ, W i = r) ∧ (∀ i, ∃ r : ℝ, v i = r) := by
  have h0 := congrFun h ValueIdx.ix0
  dsimp only [fn] at h0
  obtain ⟨h12, h3⟩ := IntOp.andi_eq_one.mp h0
  obtain ⟨h1, h2⟩ := IntOp.andi_eq_one.mp h12
  exact ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.BlendPre

end
-- ==== Proof.lean ====
/-
  The certificate of the seasonal blend. The kernel computes, outside its region, the sigmoid σ of the logit difference
  x·(W[0,0] − W[1,0]) + (bias[0] − bias[1]) and the rows xp = x[:, 1:167], d = x[:, 26:192] − xp; the region writes xp + d·σ at
  (b, i, l, e); the host reshapes and puts x[:, :26] in front. The reference forms the two logits, their soft-max (s₀, s₁), gathers
  the same rows and writes xi·s₀ + xp·s₁, then the same reshape and concatenation. On the extended reals the two agree at every
  index when the inputs are finite: s₀ = σ, s₁ = 1 − σ, and xi·σ + xp·(1 − σ) = xp + (xi − xp)·σ (Proof/BlendLaw.lean) — a law that
  uses distributivity, which is why the precondition is opened (Proof/PreFinite.lean). The kernel's side is read off the generated
  frame run (Proof/KerPayload.lean, KerHost.lean, KerArray.lean, KerRun.lean), the reference's off its run one operation at a time
  (Proof/RefBlocks.lean, RefGather.lean, RefValue.lean, RefShift.lean), and Proof/Bridge.lean joins them. The three frames are the
  generated ones; the ideal pass rewrote nothing, so `preserves` is trivial.
-/
import proofs.«108405_j87986700026365_1_alg».proof.Defs
import proofs.«108405_j87986700026365_1_alg».proof.Proof.Gen.Kernel
import proofs.«108405_j87986700026365_1_alg».proof.Proof.Gen.Kernel.Skeleton
import proofs.«108405_j87986700026365_1_alg».proof.Proof.Gen.Kernel.Launch
import proofs.«108405_j87986700026365_1_alg».proof.Proof.Gen.Kernel.Points
import proofs.«108405_j87986700026365_1_alg».proof.Proof.Gen.Kernel.Frame
import proofs.«108405_j87986700026365_1_alg».proof.Proof.Gen.KernelIdeal
import proofs.«108405_j87986700026365_1_alg».proof.Proof.Gen.KernelIdeal.Skeleton
import proofs.«108405_j87986700026365_1_alg».proof.Proof.Gen.KernelIdeal.Launch
import proofs.«108405_j87986700026365_1_alg».proof.Proof.Gen.KernelIdeal.Points
import proofs.«108405_j87986700026365_1_alg».proof.Proof.Gen.KernelIdeal.Frame
import proofs.«108405_j87986700026365_1_alg».proof.Proof.Gen.ReferenceIdeal
import proofs.«108405_j87986700026365_1_alg».proof.Proof.Gen.Pre_finite_inputs
import proofs.«108405_j87986700026365_1_alg».proof.Proof.RefRun
import proofs.«108405_j87986700026365_1_alg».proof.Proof.RefRead
import proofs.«108405_j87986700026365_1_alg».proof.Proof.KerRun
import proofs.«108405_j87986700026365_1_alg».proof.Proof.Bridge
import proofs.«108405_j87986700026365_1_alg».proof.Proof.PreFinite
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a host program: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on finite arguments both programs end with the shared tail of x and the blended rows. -/
theorem algebraic : Cert.algebraic_KernelIdeal_ReferenceIdeal := by
  intro m ρ m' ρ' hpre hagree
  refine ⟨fun c => Cert.KerBlend.tail (Cert.KerBlend.argX m c)
    (Cert.KerBlend.blocks (Cert.KerBlend.opA m c) (Cert.KerBlend.opD m c) (Cert.KerBlend.opS m c)), Cert.KerBlend.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2]
  obtain ⟨hx, hW, hv⟩ := Cert.BlendPre.finite_of_fn _ _ _ (hpre c)
  exact Cert.Bridge.ref_result _ _ _ hx hW hv _ _ _ (Cert.KerBlend.earlier_apply m c) (Cert.KerBlend.diff_apply m c)
    (Cert.KerBlend.sig_apply m c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
